-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x128 : Shape := ⟨2, ![128, 128]⟩
abbrev S64x64 : Shape := ⟨2, ![64, 64]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S128x128 .f32) (main_arg1 : FVec F S64x64 .f32) : IVec S_ 1 :=
  let main_v0 : FVec F S128x128 .f32 := Host.absf main_arg0
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S128x128 : Shape := ⟨2, ![128, 128]⟩
abbrev S64x64 : Shape := ⟨2, ![64, 64]⟩
abbrev S1x64x1x64 : Shape := ⟨4, ![1, 64, 1, 64]⟩
abbrev S1x64x128x64 : Shape := ⟨4, ![1, 64, 128, 64]⟩
abbrev S64x8192 : Shape := ⟨2, ![64, 8192]⟩
abbrev S8192x8192 : Shape := ⟨2, ![8192, 8192]⟩
abbrev S8x128 : Shape := ⟨2, ![8, 128]⟩
abbrev S512x8192 : Shape := ⟨2, ![512, 8192]⟩
abbrev S8x128x1 : Shape := ⟨3, ![8, 128, 1]⟩
abbrev S8x128x64 : Shape := ⟨3, ![8, 128, 64]⟩
abbrev S8x8192 : Shape := ⟨2, ![8, 8192]⟩
abbrev S1x8192 : Shape := ⟨2, ![1, 8192]⟩

abbrev nBuf : Space → Nat
  | .hbm => 6
  | .vmem => 5
  | .smem => 0
  | _ => 0

abbrev bufTy : (tb : Table) → Fin (tcTables nBuf tb) → BufTy
  | .hbm, ⟨0, _⟩ => ⟨S128x128, .f32⟩
  | .hbm, ⟨1, _⟩ => ⟨S64x64, .f32⟩
  | .hbm, ⟨2, _⟩ => ⟨S1x64x1x64, .f32⟩
  | .hbm, ⟨3, _⟩ => ⟨S1x64x128x64, .f32⟩
  | .hbm, ⟨4, _⟩ => ⟨S64x8192, .f32⟩
  | .hbm, ⟨5, _⟩ => ⟨S8192x8192, .f32⟩
  | .local _ .vmem, ⟨0, _⟩ => ⟨S8x128, .f32⟩
  | .local _ .vmem, ⟨1, _⟩ => ⟨S8x128, .f32⟩
  | .local _ .vmem, ⟨2, _⟩ => ⟨S64x8192, .f32⟩
  | .local _ .vmem, ⟨3, _⟩ => ⟨S512x8192, .f32⟩
  | .local _ .vmem, ⟨4, _⟩ => ⟨S512x8192, .f32⟩
  | _, _ => ⟨S128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S64x64_S1x64x1x64 : S64x64.ShapeCasts S1x64x1x64
  bcast_S1x64x1x64_S1x64x128x64_0_1_2_3 : S1x64x1x64.BroadcastsInDim S1x64x128x64 (![0, 1, 2, 3] : Fin 4 → Fin S1x64x128x64.rank)
  shapeCasts_S1x64x128x64_S64x8192 : S1x64x128x64.ShapeCasts S64x8192
  inb_S64x8192_S64x8192_0_0 : ∀ a, (![0, 0] : Fin 2 → Nat) a + S64x8192.size a ≤ S64x8192.size a
  h_S64x8192 : 0 < S64x8192.numel
  inb_S8x128_S8x128_0_0 : ∀ a, (![0, 0] : Fin 2 → Nat) a + S8x128.size a ≤ S8x128.size a
  h_S8x128 : 0 < S8x128.numel
  shapeCasts_S8x128_S8x128x1 : S8x128.ShapeCasts S8x128x1
  shapeCasts_S8x128x1_S8x128x1 : S8x128x1.ShapeCasts S8x128x1
  broadcasts_S8x128x1_S8x128x64 : S8x128x1.Broadcasts S8x128x64
  shapeCasts_S8x128x64_S8x8192 : S8x128x64.ShapeCasts S8x8192
  slices_S8x8192_o0_0_S1x8192 : S8x8192.Slices ![0, 0] S1x8192
  broadcasts_S1x8192_S64x8192 : S1x8192.Broadcasts S64x8192
  inb_S512x8192_S64x8192_0_0 : ∀ a, (![0, 0] : Fin 2 → Nat) a + S64x8192.size a ≤ S512x8192.size a
  slices_S8x8192_o1_0_S1x8192 : S8x8192.Slices ![1, 0] S1x8192
  inb_S512x8192_S64x8192_64_0 : ∀ a, (![64, 0] : Fin 2 → Nat) a + S64x8192.size a ≤ S512x8192.size a
  slices_S8x8192_o2_0_S1x8192 : S8x8192.Slices ![2, 0] S1x8192
  inb_S512x8192_S64x8192_128_0 : ∀ a, (![128, 0] : Fin 2 → Nat) a + S64x8192.size a ≤ S512x8192.size a
  slices_S8x8192_o3_0_S1x8192 : S8x8192.Slices ![3, 0] S1x8192
  inb_S512x8192_S64x8192_192_0 : ∀ a, (![192, 0] : Fin 2 → Nat) a + S64x8192.size a ≤ S512x8192.size a
  slices_S8x8192_o4_0_S1x8192 : S8x8192.Slices ![4, 0] S1x8192
  inb_S512x8192_S64x8192_256_0 : ∀ a, (![256, 0] : Fin 2 → Nat) a + S64x8192.size a ≤ S512x8192.size a
  slices_S8x8192_o5_0_S1x8192 : S8x8192.Slices ![5, 0] S1x8192
  inb_S512x8192_S64x8192_320_0 : ∀ a, (![320, 0] : Fin 2 → Nat) a + S64x8192.size a ≤ S512x8192.size a
  slices_S8x8192_o6_0_S1x8192 : S8x8192.Slices ![6, 0] S1x8192
  inb_S512x8192_S64x8192_384_0 : ∀ a, (![384, 0] : Fin 2 → Nat) a + S64x8192.size a ≤ S512x8192.size a
  slices_S8x8192_o7_0_S1x8192 : S8x8192.Slices ![7, 0] S1x8192
  inb_S512x8192_S64x8192_448_0 : ∀ a, (![448, 0] : Fin 2 → Nat) a + S64x8192.size a ≤ S512x8192.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128.size a ≤ S128x128.size a
  hwx0_0 : ∀ i : grid0.Coords, EltTy.bits .f32 = 32 ∨ (Rect.block (s := S128x128) S8x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S64x8192.size a
  hwx0_1 : ∀ i : grid0.Coords, EltTy.bits .f32 = 32 ∨ (Rect.block (s := S64x8192) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8192.size a ≤ S8192x8192.size a
  hwx0_2 : ∀ i : grid0.Coords, EltTy.bits .f32 = 32 ∨ (Rect.block (s := S8192x8192) S512x8192.size (cc0_transform_2 i) (hinb0_2 i)).WholeWords (EltTy.packing .f32)

variable [Facts₀]

abbrev win0_0 : Pipeline.Window sig grid0 :=
  Pipeline.Window.ofSpec (Memref.whole main_arg0) S8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x128 : Shape := ⟨2, ![128, 128]⟩
abbrev S64x64 : Shape := ⟨2, ![64, 64]⟩
abbrev S128x1x128x1 : Shape := ⟨4, ![128, 1, 128, 1]⟩
abbrev S1x64x1x64 : Shape := ⟨4, ![1, 64, 1, 64]⟩
abbrev S128x64x128x64 : Shape := ⟨4, ![128, 64, 128, 64]⟩
abbrev S8192x8192 : Shape := ⟨2, ![8192, 8192]⟩

abbrev nBuf : Space → Nat
  | .hbm => 8
  | .vmem => 0
  | .smem => 0
  | _ => 0

abbrev bufTy : (tb : Table) → Fin (tcTables nBuf tb) → BufTy
  | .hbm, ⟨0, _⟩ => ⟨S128x128, .f32⟩
  | .hbm, ⟨1, _⟩ => ⟨S64x64, .f32⟩
  | .hbm, ⟨2, _⟩ => ⟨S128x1x128x1, .f32⟩
  | .hbm, ⟨3, _⟩ => ⟨S1x64x1x64, .f32⟩
  | .hbm, ⟨4, _⟩ => ⟨S128x64x128x64, .f32⟩
  | .hbm, ⟨5, _⟩ => ⟨S128x64x128x64, .f32⟩
  | .hbm, ⟨6, _⟩ => ⟨S128x64x128x64, .f32⟩
  | .hbm, ⟨7, _⟩ => ⟨S8192x8192, .f32⟩
  | _, _ => ⟨S128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S128x128_S128x1x128x1_0_2 : S128x128.BroadcastsInDim S128x1x128x1 (![0, 2] : Fin 2 → Fin S128x1x128x1.rank)
  bcast_S64x64_S1x64x1x64_1_3 : S64x64.BroadcastsInDim S1x64x1x64 (![1, 3] : Fin 2 → Fin S1x64x1x64.rank)
  bcast_S128x1x128x1_S128x64x128x64_0_1_2_3 : S128x1x128x1.BroadcastsInDim S128x64x128x64 (![0, 1, 2, 3] : Fin 4 → Fin S128x64x128x64.rank)
  bcast_S1x64x1x64_S128x64x128x64_0_1_2_3 : S1x64x1x64.BroadcastsInDim S128x64x128x64 (![0, 1, 2, 3] : Fin 4 → Fin S128x64x128x64.rank)
  shapeCasts_S128x64x128x64_S8192x8192 : S128x64x128x64.ShapeCasts S8192x8192

variable [Facts₀]

class Facts : Prop extends Facts₀ where

variable [Facts]
-- ==== Proof.Kron.lean ====
/-
  The Kronecker product of a 128 × 128 matrix `A` with a 64 × 64 matrix `B`, as ONE function of the two arrays,
  entry by entry: row `r = 64·i + p` of the 8192 × 8192 result belongs to row `i` of `A` and row `p` of `B`,
  column `c = 64·j + q` to column `j` of `A` and column `q` of `B`, and the entry there is `A (i, j) · B (p, q)`:

      kron A B (r, c) = A (r / 64, c / 64) · B (r % 64, c % 64).

  It is one multiplication per entry, with the factor from `A` on the left. Both programs of this certificate perform
  exactly that multiplication, in that order, so the function is stated for any float instance and no law of
  arithmetic (commutativity, distributivity, finiteness of the factors) is used anywhere: what the proofs establish
  is only WHICH entries of `A` and `B` meet at (r, c) — arithmetic of quotients and remainders by 64.
-/
import Idealize.ShloMosaic.PureOps.Ideal

noncomputable section

namespace Cert.Kron

open Idealize.ShloMosaic

variable {F : FTy → Type} [FloatOps F]

/-- The shape of the left factor `A`. -/
abbrev SA : Shape := ⟨2, ![128, 128]⟩
/-- The shape of the right factor `B`. -/
abbrev SB : Shape := ⟨2, ![64, 64]⟩
/-- The shape of the product. -/
abbrev SK : Shape := ⟨2, ![8192, 8192]⟩

/-- The entry of `A` that entry `i` of the product is a multiple of: (row / 64, column / 64). -/
abbrev aIdx (i : SK.Idx) : SA.Idx := fun a => match a with
  | ⟨0, _⟩ => ⟨(i 0).val / 64, by have h : (i 0).val < 8192 := (i 0).isLt; show (i 0).val / 64 < 128; omega⟩
  | ⟨1, _⟩ => ⟨(i 1).val / 64, by have h : (i 1).val < 8192 := (i 1).isLt; show (i 1).val / 64 < 128; omega⟩

/-- The entry of `B` that multiplies it: (row % 64, column % 64). -/
abbrev bIdx (i : SK.Idx) : SB.Idx := fun a => match a with
  | ⟨0, _⟩ => ⟨(i 0).val % 64, by show (i 0).val % 64 < 64; omega⟩
  | ⟨1, _⟩ => ⟨(i 1).val % 64, by show (i 1).val % 64 < 64; omega⟩

/-- The Kronecker product, entry by entry. -/
def kron (A : Vec F SA .f32) (B : Vec F SB .f32) : Vec F SK .f32 :=
  fun i => FloatOps.mulf (A (aIdx i)) (B (bIdx i))

theorem kron_apply (A : Vec F SA .f32) (B : Vec F SB .f32) (i : SK.Idx) :
    kron A B i = FloatOps.mulf (A (aIdx i)) (B (bIdx i)) := rfl

end Cert.Kron

end
-- ==== Proof.RefKron.lean ====
/-
  The reference computes the Kronecker product. It broadcasts `A` to a four-axis array indexed (i, p, j, q) that
  ignores p and q, broadcasts `B` to the same shape ignoring i and j, multiplies the two entry by entry — so the
  entry at (i, p, j, q) is `A (i, j) · B (p, q)` — and reads the four axes in row-major order as an 8192 × 8192
  matrix. Row-major order puts (i, p, j, q) at position ((64·i + p)·128 + j)·64 + q = (64·i + p)·8192 + (64·j + q),
  that is at row 64·i + p and column 64·j + q. Read backwards: entry (r, c) of the result comes from
  i = r / 64, p = r % 64, j = c / 64, q = c % 64, which is the definition of `Cert.Kron.kron`.
  The reading of each operation at an index is the generated module's; written here are the two index identities.
-/
import proofs.«122591_j78486232367279_2_alg».proof.Proof.Gen.ReferenceIdeal.Read
import proofs.«122591_j78486232367279_2_alg».proof.Proof.Kron

noncomputable section

namespace Cert.ReferenceIdeal.KronValue

open Cert.ReferenceIdeal Cert.ReferenceIdeal.Gen Cert.ReferenceIdeal.Read Idealize.ShloMosaic

variable {F : FTy → Type} [FloatOps F]

/-- Following entry (r, c) of the result back through the reshape and the two broadcasts of `A` lands on
    `A (r / 64, c / 64)`: the flat position r·8192 + c has i = (r·8192 + c) / (64·128·64) = r / 64 and
    j = (r·8192 + c) / 64 % 128 = c / 64, because c < 8192 = 128·64. -/
theorem a_path (i : S8192x8192.Idx) : idx_main_v0 (idx_main_v2 (idx_main_v5 i)) = Cert.Kron.aIdx i := by
  have h0 : (i 0).val < 8192 := (i 0).isLt
  have h1 : (i 1).val < 8192 := (i 1).isLt
  funext a; apply Fin.ext
  match a with
  | ⟨0, _⟩ => show ((i 0).val * 8192 + (i 1).val) / 524288 = (i 0).val / 64; omega
  | ⟨1, _⟩ => show ((i 0).val * 8192 + (i 1).val) / 64 % 128 = (i 1).val / 64; omega

/-- And through the two broadcasts of `B` on `B (r % 64, c % 64)`: p = (r·8192 + c) / 8192 % 64 = r % 64 and
    q = (r·8192 + c) % 64 = c % 64. -/
theorem b_path (i : S8192x8192.Idx) : idx_main_v1 (idx_main_v3 (idx_main_v5 i)) = Cert.Kron.bIdx i := by
  have h0 : (i 0).val < 8192 := (i 0).isLt
  have h1 : (i 1).val < 8192 := (i 1).isLt
  funext a; apply Fin.ext
  match a with
  | ⟨0, _⟩ => show ((i 0).val * 8192 + (i 1).val) / 8192 % 64 = (i 0).val % 64; omega
  | ⟨1, _⟩ => show ((i 0).val * 8192 + (i 1).val) % 64 = (i 1).val % 64; omega

/-- The reference's result, as a function of its two arguments, is their Kronecker product. -/
theorem result_eq (A : (⟨S128x128, .f32⟩ : BufTy).Contents (Elt F)) (B : (⟨S64x64, .f32⟩ : BufTy).Contents (Elt F)) :
    val_main_v5 (F := F) A B = Cert.Kron.kron (F := F) A B := by
  funext i
  rw [val_main_v5_apply, val_main_v4_apply, val_main_v2_apply, val_main_v0_apply, val_main_v3_apply, val_main_v1_apply,
    a_path, b_path]
  rfl

end Cert.ReferenceIdeal.KronValue

end
-- ==== Proof.TiledB.lean ====
/-
  What the kernel's second operand holds when the region is entered. Before the call the program re-lays `B`
  (64 × 64) as a 64 × 8192 array: it reads `B` as a four-axis array (1, p, 1, q), broadcasts the unit third axis to
  128 copies, and reads the result (1, p, j, q) in row-major order as 64 rows of 128·64 = 8192 columns. Position
  (p·128 + j)·64 + q = p·8192 + (64·j + q) is row p, column 64·j + q; so the array is `B` repeated 128 times side by
  side, and its entry at (p, c) is `B (p, c % 64)`.
-/
import proofs.«122591_j78486232367279_2_alg».proof.Proof.Gen.KernelIdeal.Frame
import Idealize.ShloMosaic.Lib.Pipeline.Value
import Idealize.ShloMosaic.Lib.StableHlo.Run

noncomputable section

namespace Cert.KernelIdeal.TiledB

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- `B` repeated side by side: the three re-laying operations applied to a 64 × 64 array. -/
def tiled (B : Vec F S64x64 .f32) : Vec F S64x8192 .f32 :=
  shapeCast S64x8192 (broadcastInDim S1x64x128x64 ![0, 1, 2, 3] bcast_S1x64x1x64_S1x64x128x64_0_1_2_3
    (shapeCast S1x64x1x64 B shapeCasts_S64x64_S1x64x1x64)) shapeCasts_S1x64x128x64_S64x8192

/-- The entry of `B` under entry (p, c) of the tiled array: (p, c % 64). -/
abbrev under (y : S64x8192.Idx) : S64x64.Idx := fun a => match a with
  | ⟨0, _⟩ => ⟨(y 0).val, (y 0).isLt⟩
  | ⟨1, _⟩ => ⟨(y 1).val % 64, by show (y 1).val % 64 < 64; omega⟩

/-- Entry (p, c) of the tiled array is `B (p, c % 64)`: the reshape to 64 × 8192 reads four-axis position
    (0, p, c / 64, c % 64), the broadcast forgets the copy number c / 64, and the reshape of `B` reads (p, c % 64). -/
theorem tiled_apply (B : Vec F S64x64 .f32) (y : S64x8192.Idx) : tiled B y = B (under y) := by
  have hy0 : (y 0).val < 64 := (y 0).isLt
  have hy1 : (y 1).val < 8192 := (y 1).isLt
  unfold tiled
  refine (shapeCast_apply _ shapeCasts_S1x64x128x64_S64x8192 y
    (fun a => match a with
      | ⟨0, _⟩ => ⟨0, by show 0 < 1; omega⟩
      | ⟨1, _⟩ => ⟨(y 0).val, by show (y 0).val < 64; omega⟩
      | ⟨2, _⟩ => ⟨(y 1).val / 64, by show (y 1).val / 64 < 128; omega⟩
      | ⟨3, _⟩ => ⟨(y 1).val % 64, by show (y 1).val % 64 < 64; omega⟩ : S1x64x128x64.Idx)
    (by rw [Shape.rowMajor_val_four, Shape.rowMajor_val_two]
        show ((0 * 64 + (y 0).val) * 128 + (y 1).val / 64) * 64 + (y 1).val % 64 = (y 0).val * 8192 + (y 1).val
        omega)).trans ?_
  refine (broadcastInDim_apply _ bcast_S1x64x1x64_S1x64x128x64_0_1_2_3 _ _
    (fun a => match a with
      | ⟨0, _⟩ => ⟨0, by show 0 < 1; omega⟩
      | ⟨1, _⟩ => ⟨(y 0).val, by show (y 0).val < 64; omega⟩
      | ⟨2, _⟩ => ⟨0, by show 0 < 1; omega⟩
      | ⟨3, _⟩ => ⟨(y 1).val % 64, by show (y 1).val % 64 < 64; omega⟩ : S1x64x1x64.Idx)
    (fun a => match a with
      | ⟨0, _⟩ => by show 0 = if (1 : Nat) = 1 then 0 else 0; rw [if_pos rfl]
      | ⟨1, _⟩ => by show (y 0).val = if (64 : Nat) = 1 then 0 else (y 0).val; rw [if_neg (by decide)]
      | ⟨2, _⟩ => by show 0 = if (1 : Nat) = 1 then 0 else (y 1).val / 64; rw [if_pos rfl]
      | ⟨3, _⟩ => by show (y 1).val % 64 = if (64 : Nat) = 1 then 0 else (y 1).val % 64; rw [if_neg (by decide)])).trans ?_
  exact shapeCast_apply _ shapeCasts_S64x64_S1x64x1x64 _ (under y)
    (by rw [Shape.rowMajor_val_two, Shape.rowMajor_val_four]
        show (y 0).val * 64 + (y 1).val % 64 = ((0 * 64 + (y 0).val) * 1 + 0) * 64 + (y 1).val % 64
        omega)

/-- When the region is entered the second operand's array is the launch contents of `B`, tiled: the three host
    operations before the call, read off the launch memory. -/
theorem entry_main_v2 (c : Dev nD) :
    (V m c main_v2 : S64x8192.Idx → Elt F .f32) = tiled (m ((c : Thread nD τ).loc main_arg1)) := by
  dsimp only [Gen.V, Gen.hostOps0]
  after_results
  rfl

/-- So its entry at (p, c) is the launch `B (p, c % 64)`. -/
theorem entry_main_v2_apply (c : Dev nD) (y : S64x8192.Idx) :
    (V m c main_v2 : S64x8192.Idx → Elt F .f32) y = (m ((c : Thread nD τ).loc main_arg1) : S64x64.Idx → Elt F .f32) (under y) := by
  rw [entry_main_v2 m c]
  exact tiled_apply _ y

end Cert.KernelIdeal.TiledB

end
-- ==== Proof.KernelKron.lean ====
/-
  The kernel computes the Kronecker product, 512 rows at a time. Its grid has 16 points; point `t` is given rows
  8·t … 8·t + 7 of `A` (an 8 × 128 block), the whole 64 × 8192 array that holds `B` repeated side by side, and
  writes rows 512·t … 512·t + 511 of the 8192 × 8192 result (a 512 × 8192 block). Inside the block, row `y₀` and
  column `y₁` receive (row y₀ / 64 of the block of `A`, column y₁ / 64) times (row y₀ % 64 of the tiled array,
  column y₁) — that is the generated reading of the body's eight stores as one function of the block index.
  Put back into whole-array coordinates, with r = 512·t + y₀ and c = y₁:
    · the factor from `A` is `A (8·t + y₀ / 64, c / 64)`, and 8·t + y₀ / 64 = (512·t + y₀) / 64 = r / 64;
    · the factor from the tiled array is its entry (y₀ % 64, c), which is `B (y₀ % 64, c % 64)`, and
      y₀ % 64 = (512·t + y₀) % 64 = r % 64 because 512 is a multiple of 64.
  So point `t` writes block `t` of `Cert.Kron.kron A B`; the 16 blocks of 512 rows tile the 8192 rows (row r lies in
  block r / 512), hence the result array ends holding the Kronecker product everywhere.
-/
import proofs.«122591_j78486232367279_2_alg».proof.Proof.Gen.KernelIdeal.Value
import proofs.«122591_j78486232367279_2_alg».proof.Proof.TiledB
import proofs.«122591_j78486232367279_2_alg».proof.Proof.Kron
import Idealize.ShloMosaic.Lib.Pipeline.Value

noncomputable section

namespace Cert.KernelIdeal.KronValue

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zeros : (![0, 0] : Fin 2 → Nat) = fun _ => 0 := funext fun a => by fin_cases a <;> rfl

/-- What one grid point leaves in its output block, from the two input blocks it was given: at (y₀, y₁) the entry
    (y₀ / 64, y₁ / 64) of the first times the entry (y₀ % 64, y₁) of the second. The body loads both blocks whole. -/
theorem block_apply (x0 : Vec F S8x128 .f32) (x1 : Vec F S64x8192 .f32) (y : S512x8192.Idx) :
    out0_2 x0 x1 y = FloatOps.mulf (x0 (ix2_0 y)) (x1 (ix2_1 y)) := by
  have h0 : View.ld x0 r0_1 = x0 := View.ld_unit_zero (Val := Elt F) (S := S8x128) zeros _ x0
  have h1 : View.ld x1 r0_0 = x1 := View.ld_unit_zero (Val := Elt F) (S := S64x8192) zeros _ x1
  unfold out0_2
  rw [h0, h1]
  exact canon2_eq x0 x1 y

/-- Where each window's block sits at point `t`: the block of `A` and the output block are both number `t` along
    the rows and number 0 along the columns; the tiled array is taken whole at every point. Decided over the 16 points. -/
theorem block_numbers : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry `j` of what point `t` leaves is the Kronecker product's entry at `j`'s place in the whole array. -/
theorem point_apply (c : Dev nD) (t : Fin cfg0.N) (j : S512x8192.Idx) :
    out0_2 (iblk m c 0 t) (iblk m c 1 t) j
      = Cert.Kron.kron (F := F) (m ((c : Thread nD τ).loc main_arg0)) (m ((c : Thread nD τ).loc main_arg1))
          (((cfg0.win 2).blk t).view.emb j) := by
  have ht : t.val < 16 := lt_of_lt_of_eq t.isLt N_0
  have hj0 : (j 0).val < 512 := (j 0).isLt
  have hj1 : (j 1).val < 8192 := (j 1).isLt
  obtain ⟨e00, e01, e10, e11, e20, e21⟩ := block_numbers t
  refine (block_apply (iblk m c 0 t) (iblk m c 1 t) j).trans ?_
  rw [Cert.Kron.kron_apply]
  show FloatOps.mulf (V m c main_arg0 (((cfg0.win 0).blk t).view.emb (ix2_0 j)))
      (V m c main_v2 (((cfg0.win 1).blk t).view.emb (ix2_1 j))) = _
  rw [V_main_arg0, TiledB.entry_main_v2_apply]
  have eA : (((cfg0.win 0).blk t).view.emb (ix2_0 j) : S128x128.Idx) = Cert.Kron.aIdx (((cfg0.win 2).blk t).view.emb j) := by
    funext a; apply Fin.ext
    match a with
    | ⟨0, _⟩ => show win0_0.index t (0 : Fin 2) * 8 + 1 * ((j 0).val / 64) = (win0_2.index t (0 : Fin 2) * 512 + 1 * (j 0).val) / 64; omega
    | ⟨1, _⟩ => show win0_0.index t (1 : Fin 2) * 128 + 1 * ((j 1).val / 64) = (win0_2.index t (1 : Fin 2) * 8192 + 1 * (j 1).val) / 64; omega
  have eB : TiledB.under (((cfg0.win 1).blk t).view.emb (ix2_1 j)) = Cert.Kron.bIdx (((cfg0.win 2).blk t).view.emb j) := by
    funext a; apply Fin.ext
    match a with
    | ⟨0, _⟩ => show win0_1.index t (0 : Fin 2) * 64 + 1 * ((j 0).val % 64) = (win0_2.index t (0 : Fin 2) * 512 + 1 * (j 0).val) % 64; omega
    | ⟨1, _⟩ => show (win0_1.index t (1 : Fin 2) * 8192 + 1 * (j 1).val) % 64 = (win0_2.index t (1 : Fin 2) * 8192 + 1 * (j 1).val) % 64; omega
  rw [eA, eB]

/-- WHAT POINT `t` WRITES BACK is block `t` of the Kronecker product of the launch arrays. -/
theorem flushed_eq (c : Dev nD) (t : Fin cfg0.N) :
    (dats m 0 c).flushed 2 t = ((cfg0.win 2).blk t).view.read (Elt F)
      (Cert.Kron.kron (F := F) (m ((c : Thread nD τ).loc main_arg0)) (m ((c : Thread nD τ).loc main_arg1))) := by
  rw [flushed2]
  funext j
  exact point_apply m c t j

/-- An index of the result array is in point `t`'s block iff each coordinate is in the block's range on its axis. -/
theorem mem_blk (t : Fin cfg0.N) (i : S8192x8192.Idx) :
    i ∈ ((cfg0.win 2).blk t).view.set ↔ ∀ a : Fin 2, win0_2.index t a * S512x8192.size a ≤ (i a).val ∧ (i a).val < win0_2.index t a * S512x8192.size a + S512x8192.size a := by
  show i ∈ ((View.whole main_v3).slice (win0_2.rect t)).set ↔ _
  rw [View.set_slice_whole, Rect.mem_set_unit]
  exact Iff.rfl

/-- The 16 blocks of 512 rows tile the array: row r lies in block r / 512, and every block spans all 8192 columns. -/
theorem cover (i : S8192x8192.Idx) : ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, e20, e21⟩ := block_numbers t
  refine ⟨t, flush0_2 t, ?_⟩
  rw [mem_blk]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 8192 ≤ (i 1).val ∧ (i 1).val < win0_2.index t (1 : Fin 2) * 8192 + 8192; omega

/-- THE RESULT ARRAY after the run is the Kronecker product of the launch arrays. -/
theorem final (c : Dev nD) : (dats m 0 c).arrAt 2 cfg0.N
    = Cert.Kron.kron (F := F) (m ((c : Thread nD τ).loc main_arg0)) (m ((c : Thread nD τ).loc main_arg1)) :=
  (dats m 0 c).arrAt_eq_of_cover 2 _ (fun t _ => flushed_eq m c t) cover

/-- The kernel's run, read: the result array at the Kronecker product of the arguments, the arguments unchanged. -/
theorem run : θ_run defs (onTc (τ := τ) (main (F := F))) ⟨m, fun _ => 0, ρ⟩ fun r => ∀ c : Dev nD,
      r.2.mem ((c : Thread nD τ).loc main_v3)
        = Cert.Kron.kron (F := F) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.KronValue

end
-- ==== Proof.lean ====
/-
  The kernel and its reference compute the same 8192 × 8192 array from a 128 × 128 matrix `A` and a 64 × 64 matrix
  `B`: their Kronecker product, whose entry at row r, column c is `A (r / 64, c / 64) · B (r % 64, c % 64)`
  (Proof/Kron.lean).

  · The reference (Proof/RefKron.lean) spreads `A` and `B` over a four-axis array indexed (i, p, j, q), multiplies
    entry by entry, `A (i, j) · B (p, q)`, and reads the axes in row-major order, which puts that entry at row 64·i + p
    and column 64·j + q.
  · The kernel's program first lays `B` out 128 times side by side (Proof/TiledB.lean: entry (p, c) of that array is
    `B (p, c % 64)`). Each of 16 grid points then takes 8 rows of `A`, stretches every entry of them over 64
    columns, and multiplies each stretched row into all 64 rows of the tiled array; the eight 64-row products are the
    point's 512 rows of the result. Entry (y₀, y₁) of the block is (row y₀ / 64 of the 8, column y₁ / 64) times (row
    y₀ % 64 of the tiled array, column y₁); with r = 512·t + y₀ that is `A (r / 64, c / 64) · B (r % 64, c % 64)`
    (Proof/KernelKron.lean), and the 16 blocks tile the array.

  Each entry is ONE multiplication with the factor from `A` on the left, in both programs, so the two results are
  the same term and no property of multiplication on the extended reals is used: the precondition that the inputs be
  finite is never opened. The whole content is arithmetic of quotients and remainders by 64. The idealization pass
  rewrote nothing in this kernel, so the kernel at the ideal instance is its own text and that claim is `True`.
  The three frames — each program terminates without a fault and leaves its arguments as they were — are the
  kernel's generated frame at both instances and the reference's generated run with its result forgotten.
-/
import proofs.«122591_j78486232367279_2_alg».proof.Defs
import proofs.«122591_j78486232367279_2_alg».proof.Proof.Gen.Kernel
import proofs.«122591_j78486232367279_2_alg».proof.Proof.Gen.Kernel.Skeleton
import proofs.«122591_j78486232367279_2_alg».proof.Proof.Gen.Kernel.Launch
import proofs.«122591_j78486232367279_2_alg».proof.Proof.Gen.Kernel.Points
import proofs.«122591_j78486232367279_2_alg».proof.Proof.Gen.Kernel.Frame
import proofs.«122591_j78486232367279_2_alg».proof.Proof.Gen.KernelIdeal
import proofs.«122591_j78486232367279_2_alg».proof.Proof.Gen.KernelIdeal.Skeleton
import proofs.«122591_j78486232367279_2_alg».proof.Proof.Gen.KernelIdeal.Launch
import proofs.«122591_j78486232367279_2_alg».proof.Proof.Gen.KernelIdeal.Points
import proofs.«122591_j78486232367279_2_alg».proof.Proof.Gen.KernelIdeal.Frame
import proofs.«122591_j78486232367279_2_alg».proof.Proof.Gen.ReferenceIdeal
import proofs.«122591_j78486232367279_2_alg».proof.Proof.Gen.KernelIdeal.Value
import proofs.«122591_j78486232367279_2_alg».proof.Proof.Gen.ReferenceIdeal.Run
import proofs.«122591_j78486232367279_2_alg».proof.Proof.Gen.ReferenceIdeal.Read
import proofs.«122591_j78486232367279_2_alg».proof.Proof.Gen.Pre_finite_inputs
import proofs.«122591_j78486232367279_2_alg».proof.Proof.Kron
import proofs.«122591_j78486232367279_2_alg».proof.Proof.RefKron
import proofs.«122591_j78486232367279_2_alg».proof.Proof.TiledB
import proofs.«122591_j78486232367279_2_alg».proof.Proof.KernelKron
import Idealize.ShloMosaic.Adequacy
import Idealize.ShloMosaic.Init

noncomputable section

namespace Cert.Proof

open Idealize.ShloMosaic Idealize.ShloMosaic.TcCoe Idealize.SL.Sem

/-- The kernel as printed terminates, faults nowhere and leaves `A` and `B` unchanged. -/
theorem frame_kernel : Cert.frame_Kernel := fun m ρ _ => Cert.Kernel.Gen.frame m ρ

/-- The same of the kernel read on the extended reals. -/
theorem frame_kernel_ideal : Cert.frame_KernelIdeal := fun m ρ _ => Cert.KernelIdeal.Gen.frame m ρ

/-- The reference runs to its composed term and leaves its arguments unchanged; here the term is forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten when the kernel was read on the extended reals, so there is nothing to justify. -/
theorem preserves : Cert.preserves_Kernel_KernelIdeal := trivial

/-- From memories that agree on `A` and `B`, both programs end with the Kronecker product of `A` and `B` in their
    result array: the kernel block by block, the reference through its four-axis product. -/
theorem algebraic : Cert.algebraic_KernelIdeal_ReferenceIdeal := by
  intro m ρ m' ρ' _ hagree
  refine ⟨fun c => Cert.Kron.kron (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KronValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.KronValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
